-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S1250000 : Shape := ⟨1, ![1250000]⟩
abbrev S1024x100 : Shape := ⟨2, ![1024, 100]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : FVec F S64x64 .f32) (main_arg2 : FVec F S64 .f32) (main_arg3 : FVec F S64x64 .f32) (main_arg4 : FVec F S64 .f32) (main_arg5 : IVec S1250000 32) (main_arg6 : IVec S1250000 32) (main_arg7 : IVec S1024x100 32) (main_arg8 : IVec S1024x100 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S50000x64 : Shape := ⟨2, ![50000, 64]⟩
abbrev S64x64 : Shape := ⟨2, ![64, 64]⟩
abbrev S64 : Shape := ⟨1, ![64]⟩
abbrev S1250000 : Shape := ⟨1, ![1250000]⟩
abbrev S1024x100 : Shape := ⟨2, ![1024, 100]⟩
abbrev S_ : Shape := ⟨0, ![]⟩
abbrev S50000 : Shape := ⟨1, ![50000]⟩
abbrev S1250000x1 : Shape := ⟨2, ![1250000, 1]⟩
abbrev S1250000x64 : Shape := ⟨2, ![1250000, 64]⟩
abbrev S50000x1 : Shape := ⟨2, ![50000, 1]⟩
abbrev S1x64 : Shape := ⟨2, ![1, 64]⟩
abbrev S5000x64 : Shape := ⟨2, ![5000, 64]⟩
abbrev S1024x100x1 : Shape := ⟨3, ![1024, 100, 1]⟩
abbrev S1024x100x64 : Shape := ⟨3, ![1024, 100, 64]⟩
abbrev S64x100x64 : Shape := ⟨3, ![64, 100, 64]⟩
abbrev S64x100 : Shape := ⟨2, ![64, 100]⟩

abbrev nBuf : Space → Nat
  | .hbm => 76
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S1250000, .i32⟩
  | .hbm, ⟨6, _⟩ => ⟨S1250000, .i32⟩
  | .hbm, ⟨7, _⟩ => ⟨S1024x100, .i32⟩
  | .hbm, ⟨8, _⟩ => ⟨S1024x100, .i32⟩
  | .hbm, ⟨9, _⟩ => ⟨S_, .f32⟩
  | .hbm, ⟨10, _⟩ => ⟨S1250000, .f32⟩
  | .hbm, ⟨11, _⟩ => ⟨S_, .f32⟩
  | .hbm, ⟨12, _⟩ => ⟨S50000, .f32⟩
  | .hbm, ⟨13, _⟩ => ⟨S1250000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S1250000, .i32⟩
  | .hbm, ⟨23, _⟩ => ⟨S1250000, .i1⟩
  | .hbm, ⟨24, _⟩ => ⟨S_, .i32⟩
  | .hbm, ⟨25, _⟩ => ⟨S1250000, .i32⟩
  | .hbm, ⟨26, _⟩ => ⟨S1250000, .i32⟩
  | .hbm, ⟨27, _⟩ => ⟨S1250000, .i32⟩
  | .hbm, ⟨28, _⟩ => ⟨S1250000x1, .i32⟩
  | .hbm, ⟨29, _⟩ => ⟨S1250000x64, .f32⟩
  | .hbm, ⟨30, _⟩ => ⟨S_, .f32⟩
  | .hbm, ⟨31, _⟩ => ⟨S50000x64, .f32⟩
  | .hbm, ⟨32, _⟩ => ⟨S1250000x1, .i32⟩
  | .hbm, ⟨33, _⟩ => ⟨S50000x64, .f32⟩
  | .hbm, ⟨34, _⟩ => ⟨S50000x1, .f32⟩
  | .hbm, ⟨35, _⟩ => ⟨S50000x64, .f32⟩
  | .hbm, ⟨36, _⟩ => ⟨S50000x64, .f32⟩
  | .hbm, ⟨37, _⟩ => ⟨S1x64, .f32⟩
  | .hbm, ⟨38, _⟩ => ⟨S50000x64, .f32⟩
  | .hbm, ⟨39, _⟩ => ⟨S_, .i32⟩
  | .hbm, ⟨40, _⟩ => ⟨S1250000, .i32⟩
  | .hbm, ⟨41, _⟩ => ⟨S1250000, .i1⟩
  | .hbm, ⟨42, _⟩ => ⟨S_, .i32⟩
  | .hbm, ⟨43, _⟩ => ⟨S1250000, .i32⟩
  | .hbm, ⟨44, _⟩ => ⟨S1250000, .i32⟩
  | .hbm, ⟨45, _⟩ => ⟨S1250000, .i32⟩
  | .hbm, ⟨46, _⟩ => ⟨S1250000x1, .i32⟩
  | .hbm, ⟨47, _⟩ => ⟨S1250000x64, .f32⟩
  | .hbm, ⟨48, _⟩ => ⟨S_, .f32⟩
  | .hbm, ⟨49, _⟩ => ⟨S50000x64, .f32⟩
  | .hbm, ⟨50, _⟩ => ⟨S1250000x1, .i32⟩
  | .hbm, ⟨51, _⟩ => ⟨S50000x64, .f32⟩
  | .hbm, ⟨52, _⟩ => ⟨S50000x1, .f32⟩
  | .hbm, ⟨53, _⟩ => ⟨S50000x64, .f32⟩
  | .hbm, ⟨54, _⟩ => ⟨S50000x64, .f32⟩
  | .hbm, ⟨55, _⟩ => ⟨S1x64, .f32⟩
  | .hbm, ⟨56, _⟩ => ⟨S50000x64, .f32⟩
  | .hbm, ⟨57, _⟩ => ⟨S_, .i32⟩
  | .hbm, ⟨58, _⟩ => ⟨S1024x100, .i32⟩
  | .hbm, ⟨59, _⟩ => ⟨S1024x100, .i1⟩
  | .hbm, ⟨60, _⟩ => ⟨S_, .i32⟩
  | .hbm, ⟨61, _⟩ => ⟨S1024x100, .i32⟩
  | .hbm, ⟨62, _⟩ => ⟨S1024x100, .i32⟩
  | .hbm, ⟨63, _⟩ => ⟨S1024x100, .i32⟩
  | .hbm, ⟨64, _⟩ => ⟨S1024x100x1, .i32⟩
  | .hbm, ⟨65, _⟩ => ⟨S1024x100x64, .f32⟩
  | .hbm, ⟨66, _⟩ => ⟨S_, .i32⟩
  | .hbm, ⟨67, _⟩ => ⟨S1024x100, .i32⟩
  | .hbm, ⟨68, _⟩ => ⟨S1024x100, .i1⟩
  | .hbm, ⟨69, _⟩ => ⟨S_, .i32⟩
  | .hbm, ⟨70, _⟩ => ⟨S1024x100, .i32⟩
  | .hbm, ⟨71, _⟩ => ⟨S1024x100, .i32⟩
  | .hbm, ⟨72, _⟩ => ⟨S1024x100, .i32⟩
  | .hbm, ⟨73, _⟩ => ⟨S1024x100x1, .i32⟩
  | .hbm, ⟨74, _⟩ => ⟨S1024x100x64, .f32⟩
  | .hbm, ⟨75, _⟩ => ⟨S1024x100, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S64x100x64, .f32⟩
  | .local _ .vmem, ⟨13, _⟩ => ⟨S64x100x64, .f32⟩
  | .local _ .vmem, ⟨14, _⟩ => ⟨S64x100x64, .f32⟩
  | .local _ .vmem, ⟨15, _⟩ => ⟨S64x100x64, .f32⟩
  | .local _ .vmem, ⟨16, _⟩ => ⟨S64x100, .f32⟩
  | .local _ .vmem, ⟨17, _⟩ => ⟨S64x100, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_c_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_10 : Ref sig .tc := ⟨.hbm, 66, rfl⟩
abbrev main_v45 : Ref sig .tc := ⟨.hbm, 67, rfl⟩
abbrev main_v46 : Ref sig .tc := ⟨.hbm, 68, rfl⟩
abbrev main_c_11 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x100x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x100x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S64x100 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S1250000 : S_.BroadcastsInDim S1250000 (![] : Fin 0 → Fin S1250000.rank)
  bcast_S_S50000 : S_.BroadcastsInDim S50000 (![] : Fin 0 → Fin S50000.rank)
  bcast_S1250000_S1250000x1_0 : S1250000.BroadcastsInDim S1250000x1 (![0] : Fin 1 → Fin S1250000x1.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S1024x100 : S_.BroadcastsInDim S1024x100 (![] : Fin 0 → Fin S1024x100.rank)
  bcast_S1024x100_S1024x100x1_0_1 : S1024x100.BroadcastsInDim S1024x100x1 (![0, 1] : Fin 2 → Fin S1024x100x1.rank)
  inb_S64x100x64_S64x100x64_0_0_0 : ∀ a, (![0, 0, 0] : Fin 3 → Nat) a + S64x100x64.size a ≤ S64x100x64.size a
  h_S64x100x64 : 0 < S64x100x64.numel
  shapeCasts_S64x100x64_S64x100x64 : S64x100x64.ShapeCasts S64x100x64
  reduces_S64x100x64_S64x100 : S64x100x64.Reduces [2] S64x100
  inb_S64x100_S64x100_0_0 : ∀ a, (![0, 0] : Fin 2 → Nat) a + S64x100.size a ≤ S64x100.size a
  h_S64x100 : 0 < S64x100.numel
  scatter_S50000_S1250000x1_S1250000_n_0_0_1_wf : ScatterDims.WF S50000 S1250000x1 S1250000 [] [0] [0] 1
  gather_S50000x64_S1250000x1_S1250000x64_1_0_n_n_0_1_164_wf : GatherDims.WF S50000x64 S1250000x1 S1250000x64 [1] [0] [] [0] [] 1 ![1, 64]
  scatter_S50000x64_S1250000x1_S1250000x64_1_0_0_1_wf : ScatterDims.WF S50000x64 S1250000x1 S1250000x64 [1] [0] [0] 1
  dot_S5000x64_S64x64_S5000x64_1_1_0_0_n_n_wf : DotDims.WF S5000x64 S64x64 S5000x64 [1] [1] [0] [0] [] []
  gather_S50000x64_S1024x100x1_S1024x100x64_2_0_n_n_0_2_164_wf : GatherDims.WF S50000x64 S1024x100x1 S1024x100x64 [2] [0] [] [0] [] 2 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x100x64.size a ≤ S1024x100x64.size a
  hwx2_0 : ∀ i : grid2.Coords, EltTy.bits .f32 = 32 ∨ (Rect.block (s := S1024x100x64) S64x100x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x100x64.size a ≤ S1024x100x64.size a
  hwx2_1 : ∀ i : grid2.Coords, EltTy.bits .f32 = 32 ∨ (Rect.block (s := S1024x100x64) S64x100x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S64x100.size a ≤ S1024x100.size a
  hwx2_2 : ∀ i : grid2.Coords, EltTy.bits .f32 = 32 ∨ (Rect.block (s := S1024x100) S64x100.size (cc2_transform_2 i) (hinb2_2 i)).WholeWords (EltTy.packing .f32)

variable [Facts₀]

def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def dot_S5000x64_S64x64_S5000x64_1_1_0_0_n_n : DotDims S5000x64 S64x64 S5000x64 where
  lhsContracting := [1]
  rhsContracting := [1]
  lhsNonContracting := [0]
  rhsNonContracting := [0]
  lhsBatch := []
  rhsBatch := []
  wf := dot_S5000x64_S64x64_S5000x64_1_1_0_0_n_n_wf
def gather_S50000x64_S1024x100x1_S1024x100x64_2_0_n_n_0_2_164 : GatherDims S50000x64 S1024x100x1 S1024x100x64 where
  offsetDims := [2]
  collapsedSliceDims := [0]
  operandBatchingDims := []
  startIndicesBatchingDims := []
  startIndexMap := [0]
  indexVectorDim := 2
  sliceSizes := ![1, 64]
  wf := gather_S50000x64_S1024x100x1_S1024x100x64_2_0_n_n_0_2_164_wf

abbrev win0_0 : Pipeline.Window sig grid0 :=
  Pipeline.Window.ofSpec (Memref.whole main_v20) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v35) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S64x100x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S64x100x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S64x100.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S1250000 : Shape := ⟨1, ![1250000]⟩
abbrev S1024x100 : Shape := ⟨2, ![1024, 100]⟩
abbrev S_ : Shape := ⟨0, ![]⟩
abbrev S1250000x1 : Shape := ⟨2, ![1250000, 1]⟩
abbrev S1250000x64 : Shape := ⟨2, ![1250000, 64]⟩
abbrev S50000 : Shape := ⟨1, ![50000]⟩
abbrev S50000x1 : Shape := ⟨2, ![50000, 1]⟩
abbrev S1x64 : Shape := ⟨2, ![1, 64]⟩
abbrev S1024x100x1 : Shape := ⟨3, ![1024, 100, 1]⟩
abbrev S1024x100x64 : Shape := ⟨3, ![1024, 100, 64]⟩

abbrev nBuf : Space → Nat
  | .hbm => 92
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S1250000, .i32⟩
  | .hbm, ⟨6, _⟩ => ⟨S1250000, .i32⟩
  | .hbm, ⟨7, _⟩ => ⟨S1024x100, .i32⟩
  | .hbm, ⟨8, _⟩ => ⟨S1024x100, .i32⟩
  | .hbm, ⟨9, _⟩ => ⟨S_, .i32⟩
  | .hbm, ⟨10, _⟩ => ⟨S1250000, .i32⟩
  | .hbm, ⟨11, _⟩ => ⟨S1250000, .i1⟩
  | .hbm, ⟨12, _⟩ => ⟨S_, .i32⟩
  | .hbm, ⟨13, _⟩ => ⟨S1250000, .i32⟩
  | .hbm, ⟨14, _⟩ => ⟨S1250000, .i32⟩
  | .hbm, ⟨15, _⟩ => ⟨S1250000, .i32⟩
  | .hbm, ⟨16, _⟩ => ⟨S1250000x1, .i32⟩
  | .hbm, ⟨17, _⟩ => ⟨S1250000x64, .f32⟩
  | .hbm, ⟨18, _⟩ => ⟨S_, .f32⟩
  | .hbm, ⟨19, _⟩ => ⟨S50000x64, .f32⟩
  | .hbm, ⟨20, _⟩ => ⟨S1250000x1, .i32⟩
  | .hbm, ⟨21, _⟩ => ⟨S50000x64, .f32⟩
  | .hbm, ⟨22, _⟩ => ⟨S_, .f32⟩
  | .hbm, ⟨23, _⟩ => ⟨S1250000, .f32⟩
  | .hbm, ⟨24, _⟩ => ⟨S_, .f32⟩
  | .hbm, ⟨25, _⟩ => ⟨S50000, .f32⟩
  | .hbm, ⟨26, _⟩ => ⟨S1250000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x64, .f32⟩
  | .hbm, ⟨33, _⟩ => ⟨S50000x64, .f32⟩
  | .hbm, ⟨34, _⟩ => ⟨S64x64, .f32⟩
  | .hbm, ⟨35, _⟩ => ⟨S50000x64, .f32⟩
  | .hbm, ⟨36, _⟩ => ⟨S1x64, .f32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S_, .i32⟩
  | .hbm, ⟨41, _⟩ => ⟨S1250000, .i32⟩
  | .hbm, ⟨42, _⟩ => ⟨S1250000, .i1⟩
  | .hbm, ⟨43, _⟩ => ⟨S_, .i32⟩
  | .hbm, ⟨44, _⟩ => ⟨S1250000, .i32⟩
  | .hbm, ⟨45, _⟩ => ⟨S1250000, .i32⟩
  | .hbm, ⟨46, _⟩ => ⟨S1250000, .i32⟩
  | .hbm, ⟨47, _⟩ => ⟨S1250000x1, .i32⟩
  | .hbm, ⟨48, _⟩ => ⟨S1250000x64, .f32⟩
  | .hbm, ⟨49, _⟩ => ⟨S_, .f32⟩
  | .hbm, ⟨50, _⟩ => ⟨S50000x64, .f32⟩
  | .hbm, ⟨51, _⟩ => ⟨S1250000x1, .i32⟩
  | .hbm, ⟨52, _⟩ => ⟨S50000x64, .f32⟩
  | .hbm, ⟨53, _⟩ => ⟨S_, .f32⟩
  | .hbm, ⟨54, _⟩ => ⟨S1250000, .f32⟩
  | .hbm, ⟨55, _⟩ => ⟨S_, .f32⟩
  | .hbm, ⟨56, _⟩ => ⟨S50000, .f32⟩
  | .hbm, ⟨57, _⟩ => ⟨S1250000x1, .i32⟩
  | .hbm, ⟨58, _⟩ => ⟨S50000, .f32⟩
  | .hbm, ⟨59, _⟩ => ⟨S_, .f32⟩
  | .hbm, ⟨60, _⟩ => ⟨S50000, .f32⟩
  | .hbm, ⟨61, _⟩ => ⟨S50000, .f32⟩
  | .hbm, ⟨62, _⟩ => ⟨S50000x1, .f32⟩
  | .hbm, ⟨63, _⟩ => ⟨S50000x64, .f32⟩
  | .hbm, ⟨64, _⟩ => ⟨S50000x64, .f32⟩
  | .hbm, ⟨65, _⟩ => ⟨S64x64, .f32⟩
  | .hbm, ⟨66, _⟩ => ⟨S50000x64, .f32⟩
  | .hbm, ⟨67, _⟩ => ⟨S1x64, .f32⟩
  | .hbm, ⟨68, _⟩ => ⟨S50000x64, .f32⟩
  | .hbm, ⟨69, _⟩ => ⟨S50000x64, .f32⟩
  | .hbm, ⟨70, _⟩ => ⟨S50000x64, .f32⟩
  | .hbm, ⟨71, _⟩ => ⟨S_, .i32⟩
  | .hbm, ⟨72, _⟩ => ⟨S1024x100, .i32⟩
  | .hbm, ⟨73, _⟩ => ⟨S1024x100, .i1⟩
  | .hbm, ⟨74, _⟩ => ⟨S_, .i32⟩
  | .hbm, ⟨75, _⟩ => ⟨S1024x100, .i32⟩
  | .hbm, ⟨76, _⟩ => ⟨S1024x100, .i32⟩
  | .hbm, ⟨77, _⟩ => ⟨S1024x100, .i32⟩
  | .hbm, ⟨78, _⟩ => ⟨S1024x100x1, .i32⟩
  | .hbm, ⟨79, _⟩ => ⟨S1024x100x64, .f32⟩
  | .hbm, ⟨80, _⟩ => ⟨S_, .i32⟩
  | .hbm, ⟨81, _⟩ => ⟨S1024x100, .i32⟩
  | .hbm, ⟨82, _⟩ => ⟨S1024x100, .i1⟩
  | .hbm, ⟨83, _⟩ => ⟨S_, .i32⟩
  | .hbm, ⟨84, _⟩ => ⟨S1024x100, .i32⟩
  | .hbm, ⟨85, _⟩ => ⟨S1024x100, .i32⟩
  | .hbm, ⟨86, _⟩ => ⟨S1024x100, .i32⟩
  | .hbm, ⟨87, _⟩ => ⟨S1024x100x1, .i32⟩
  | .hbm, ⟨88, _⟩ => ⟨S1024x100x64, .f32⟩
  | .hbm, ⟨89, _⟩ => ⟨S1024x100x64, .f32⟩
  | .hbm, ⟨90, _⟩ => ⟨S_, .f32⟩
  | .hbm, ⟨91, _⟩ => ⟨S1024x100, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_12 : Ref sig .tc := ⟨.hbm, 80, rfl⟩
abbrev main_v57 : Ref sig .tc := ⟨.hbm, 81, rfl⟩
abbrev main_v58 : Ref sig .tc := ⟨.hbm, 82, rfl⟩
abbrev main_c_13 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S1024x100 : S_.BroadcastsInDim S1024x100 (![] : Fin 0 → Fin S1024x100.rank)
  bcast_S1024x100_S1024x100x1_0_1 : S1024x100.BroadcastsInDim S1024x100x1 (![0, 1] : Fin 2 → Fin S1024x100x1.rank)
  reducesTo_S1024x100x64_S1024x100_d2 : S1024x100x64.ReducesTo [2] S1024x100
  h_S_ : 0 < S_.numel
  gather_S50000x64_S1250000x1_S1250000x64_1_0_n_n_0_1_164_wf : GatherDims.WF S50000x64 S1250000x1 S1250000x64 [1] [0] [] [0] [] 1 ![1, 64]
  scatter_S50000x64_S1250000x1_S1250000x64_1_0_0_1_wf : ScatterDims.WF S50000x64 S1250000x1 S1250000x64 [1] [0] [0] 1
  scatter_S50000_S1250000x1_S1250000_n_0_0_1_wf : ScatterDims.WF S50000 S1250000x1 S1250000 [] [0] [0] 1
  dot_S50000x64_S64x64_S50000x64_1_0_0_1_n_n_wf : DotDims.WF S50000x64 S64x64 S50000x64 [1] [0] [0] [1] [] []
  gather_S50000x64_S1024x100x1_S1024x100x64_2_0_n_n_0_2_164_wf : GatherDims.WF S50000x64 S1024x100x1 S1024x100x64 [2] [0] [] [0] [] 2 ![1, 64]

variable [Facts₀]

def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1024x100x1_S1024x100x64_2_0_n_n_0_2_164 : GatherDims S50000x64 S1024x100x1 S1024x100x64 where
  offsetDims := [2]
  collapsedSliceDims := [0]
  operandBatchingDims := []
  startIndicesBatchingDims := []
  startIndexMap := [0]
  indexVectorDim := 2
  sliceSizes := ![1, 64]
  wf := gather_S50000x64_S1024x100x1_S1024x100x64_2_0_n_n_0_2_164_wf

class Facts : Prop extends Facts₀ where

variable [Facts]
-- ==== Proof.KernelRun.lean ====
/-
  The idealized kernel program's run with its RESULT array named.

  The program is three pipelined regions among stretches of host operations. The frame run threads, from one
  segment boundary to the next, the contents of every buffer of the TensorCore: `W0` at launch, `W1` after the
  first host stretch, `W2` after the first region (its output array at what its write-backs leave), and so on
  up to `W6` after the last region. The final state therefore holds EVERY unscoped buffer at `W6`; the frame
  claim keeps only the argument arrays of that fact. Here the same run is stated with one more buffer kept: the
  result array `main_v52`, at `W6` of it. What `W6` holds there is read back region by region elsewhere.
-/
import proofs.«118432_j87952340287676_1_alg».proof.Proof.Patched.KernelIdeal.Frame

set_option maxRecDepth 16384

noncomputable section

namespace Cert.KernelIdeal.ResultRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents of it and the argument arrays as launched: the segments' run, the final thread state read
    against the final memory at the result's buffer as at each argument's. -/
theorem run_result : θ_run defs (onTc (τ := τ) (main (F := F))) ⟨m, fun _ => 0, ρ⟩ (fun r => ∀ c : Dev nD,
      r.2.mem ((c.tc : Thread nD τ).loc main_v52) = W6 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v52 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.ResultRun

end
-- ==== Proof.KernelStages.lean ====
/-
  The host stretches of the idealized kernel program, read.

  Between its three regions the kernel's @main does, on the host, what the reference does: it gathers the rows at the
  edge sources and scatters them with addition to the edge destinations, and it gathers the user and the item rows.
  Two things differ. The kernel computes the RECIPROCAL of the clamped degree once, before the first region, and
  multiplies the message sums by it; and the bias is reshaped to a row for the region to read. This module names the
  stages over arbitrary operands, in the kernel's own operations, and reads the operand arrays of each region (the
  buffer contents `V1`, `V3`, `V5` at the regions' entries) and the result buffer after the last region back
  through the segment boundaries to the launch memory and to the previous region's output array.
-/
import proofs.«118432_j87952340287676_1_alg».proof.Proof.Patched.KernelIdeal.Frame
import Idealize.ShloMosaic.Lib.StableHlo.Run

set_option maxRecDepth 16384

noncomputable section

namespace Cert.KernelIdeal.Stages

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]

/-- A node index counted from the end when it is negative: jax's wrap-around of an index into the 50000 nodes. -/
def wrapEdge (s : (⟨S1250000, .i32⟩ : BufTy).Contents (Elt F)) : (⟨S1250000, .i32⟩ : BufTy).Contents (Elt F) :=
  select (cmpi .slt s (broadcastInDim S1250000 ![] bcast_S_S1250000 (constantI S_ 32 0#32)))
    (addi s (broadcastInDim S1250000 ![] bcast_S_S1250000 (constantI S_ 32 50000#32))) s

/-- The sum, into each destination node, of the features of the source nodes of its incoming edges: a gather of
    the rows at the edge sources scattered with addition to the rows at the edge destinations. -/
def messageSum (h : (⟨S50000x64, .f32⟩ : BufTy).Contents (Elt F)) (src dst : (⟨S1250000, .i32⟩ : BufTy).Contents (Elt F)) :
    (⟨S50000x64, .f32⟩ : BufTy).Contents (Elt F) :=
  Host.scatterAdd scatter_S50000x64_S1250000x1_S1250000x64_1_0_0_1
    (broadcastInDim S50000x64 ![] bcast_S_S50000x64 (constant S_ .f32 0x00000000#32))
    (broadcastInDim S1250000x1 ![0] bcast_S1250000_S1250000x1_0 dst)
    (Host.gather gather_S50000x64_S1250000x1_S1250000x64_1_0_n_n_0_1_164 h
      (broadcastInDim S1250000x1 ![0] bcast_S1250000_S1250000x1_0 (wrapEdge src)))

/-- The number of incoming edges of each node (ones scattered with addition), not below one. -/
def degreeOrOne (dst : (⟨S1250000, .i32⟩ : BufTy).Contents (Elt F)) : (⟨S50000, .f32⟩ : BufTy).Contents (Elt F) :=
  maximumf
    (Host.scatterAdd scatter_S50000_S1250000x1_S1250000_n_0_0_1
      (broadcastInDim S50000 ![] bcast_S_S50000 (constant S_ .f32 0x00000000#32))
      (broadcastInDim S1250000x1 ![0] bcast_S1250000_S1250000x1_0 dst)
      (broadcastInDim S1250000 ![] bcast_S_S1250000 (constant S_ .f32 0x3F800000#32)))
    (broadcastInDim S50000 ![] bcast_S_S50000 (constant S_ .f32 0x3F800000#32))

/-- A value per node spread along the feature axis. -/
def perNode (v : (⟨S50000, .f32⟩ : BufTy).Contents (Elt F)) : (⟨S50000x64, .f32⟩ : BufTy).Contents (Elt F) :=
  broadcastInDim S50000x64 ![0, 1] bcast_S50000x1_S50000x64_0_1 (broadcastInDim S50000x1 ![0] bcast_S50000_S50000x1_0 v)

/-- A node index of the batch counted from the end when it is negative. -/
def wrapBatch (s : (⟨S1024x100, .i32⟩ : BufTy).Contents (Elt F)) : (⟨S1024x100, .i32⟩ : BufTy).Contents (Elt F) :=
  select (cmpi .slt s (broadcastInDim S1024x100 ![] bcast_S_S1024x100 (constantI S_ 32 0#32)))
    (addi s (broadcastInDim S1024x100 ![] bcast_S_S1024x100 (constantI S_ 32 50000#32))) s

/-- The rows of the node features at a batch of node indices. -/
def rowsAt (h : (⟨S50000x64, .f32⟩ : BufTy).Contents (Elt F)) (idx : (⟨S1024x100, .i32⟩ : BufTy).Contents (Elt F)) :
    (⟨S1024x100x64, .f32⟩ : BufTy).Contents (Elt F) :=
  Host.gather gather_S50000x64_S1024x100x1_S1024x100x64_2_0_n_n_0_2_164 h
    (broadcastInDim S1024x100x1 ![0, 1] bcast_S1024x100_S1024x100x1_0_1 (wrapBatch idx))

/-- One over the clamped degree of each node. -/
def inverseDegree (dst : (⟨S1250000, .i32⟩ : BufTy).Contents (Elt F)) : (⟨S50000, .f32⟩ : BufTy).Contents (Elt F) :=
  Host.divf (broadcastInDim S50000 ![] bcast_S_S50000 (constant S_ .f32 0x3F800000#32)) (degreeOrOne dst)

/-- The sums of the messages scaled by a value per node. -/
def scaledMessages (h : (⟨S50000x64, .f32⟩ : BufTy).Contents (Elt F)) (src dst : (⟨S1250000, .i32⟩ : BufTy).Contents (Elt F))
    (r : (⟨S50000, .f32⟩ : BufTy).Contents (Elt F)) : (⟨S50000x64, .f32⟩ : BufTy).Contents (Elt F) :=
  mulf (messageSum h src dst) (perNode r)

/-- The bias as a row. -/
def biasRow (b : (⟨S64, .f32⟩ : BufTy).Contents (Elt F)) : (⟨S1x64, .f32⟩ : BufTy).Contents (Elt F) :=
  shapeCast S1x64 b shapeCasts_S64_S1x64

variable (m : (ℓ : Loc nD τ sig) → Buf (Elt F) ℓ) (ρ : Dev nD → PrngReg)

/-! ## Before the first region -/

set_option maxHeartbeats 4000000 in
theorem entry0_features (c : Dev nD) :
    V1 m ρ c main_v20 = scaledMessages (m ((c : Thread nD τ).loc main_arg0)) (m ((c : Thread nD τ).loc main_arg5)) (m ((c : Thread nD τ).loc main_arg6)) (inverseDegree (m ((c : Thread nD τ).loc main_arg6))) := by
  dsimp only [V1, W1, hostOps0]
  after_results_simp
  rfl

theorem entry0_weights (c : Dev nD) : V1 m ρ c main_arg1 = (m ((c : Thread nD τ).loc main_arg1)) := by
  dsimp only [V1, W1, hostOps0]
  after_results

theorem entry0_bias (c : Dev nD) : V1 m ρ c main_v21 = biasRow (m ((c : Thread nD τ).loc main_arg2)) := by
  dsimp only [V1, W1, hostOps0]
  after_results
  rfl

set_option maxHeartbeats 1000000 in
theorem W1_inverseDegree (c : Dev nD) : W1 m ρ c (Proc.devRef .tc main_v7) = inverseDegree (m ((c : Thread nD τ).loc main_arg6)) := by
  dsimp only [W1, hostOps0]
  after_results
  rfl

theorem W1_arg3 (c : Dev nD) : W1 m ρ c (Proc.devRef .tc main_arg3) = (m ((c : Thread nD τ).loc main_arg3)) := by
  dsimp only [W1, hostOps0]
  after_results

theorem W1_arg4 (c : Dev nD) : W1 m ρ c (Proc.devRef .tc main_arg4) = (m ((c : Thread nD τ).loc main_arg4)) := by
  dsimp only [W1, hostOps0]
  after_results

theorem W1_arg5 (c : Dev nD) : W1 m ρ c (Proc.devRef .tc main_arg5) = (m ((c : Thread nD τ).loc main_arg5)) := by
  dsimp only [W1, hostOps0]
  after_results

theorem W1_arg6 (c : Dev nD) : W1 m ρ c (Proc.devRef .tc main_arg6) = (m ((c : Thread nD τ).loc main_arg6)) := by
  dsimp only [W1, hostOps0]
  after_results

theorem W1_arg7 (c : Dev nD) : W1 m ρ c (Proc.devRef .tc main_arg7) = (m ((c : Thread nD τ).loc main_arg7)) := by
  dsimp only [W1, hostOps0]
  after_results

theorem W1_arg8 (c : Dev nD) : W1 m ρ c (Proc.devRef .tc main_arg8) = (m ((c : Thread nD τ).loc main_arg8)) := by
  dsimp only [W1, hostOps0]
  after_results

/-! ## After the first region -/

theorem W2_hidden (c : Dev nD) : W2 m ρ c (Proc.devRef .tc main_v22) = (dat0 (V1 m ρ) c).arrAt 3 cfg0.N := W2_arr m ρ c 3

theorem W2_inverseDegree (c : Dev nD) : W2 m ρ c (Proc.devRef .tc main_v7) = inverseDegree (m ((c : Thread nD τ).loc main_arg6)) :=
  (W2_of_ne m ρ c main_v7 (by decide)).trans (W1_inverseDegree m ρ c)

theorem W2_arg3 (c : Dev nD) : W2 m ρ c (Proc.devRef .tc main_arg3) = (m ((c : Thread nD τ).loc main_arg3)) :=
  (W2_of_ne m ρ c main_arg3 (by decide)).trans (W1_arg3 m ρ c)

theorem W2_arg4 (c : Dev nD) : W2 m ρ c (Proc.devRef .tc main_arg4) = (m ((c : Thread nD τ).loc main_arg4)) :=
  (W2_of_ne m ρ c main_arg4 (by decide)).trans (W1_arg4 m ρ c)

theorem W2_arg5 (c : Dev nD) : W2 m ρ c (Proc.devRef .tc main_arg5) = (m ((c : Thread nD τ).loc main_arg5)) :=
  (W2_of_ne m ρ c main_arg5 (by decide)).trans (W1_arg5 m ρ c)

theorem W2_arg6 (c : Dev nD) : W2 m ρ c (Proc.devRef .tc main_arg6) = (m ((c : Thread nD τ).loc main_arg6)) :=
  (W2_of_ne m ρ c main_arg6 (by decide)).trans (W1_arg6 m ρ c)

theorem W2_arg7 (c : Dev nD) : W2 m ρ c (Proc.devRef .tc main_arg7) = (m ((c : Thread nD τ).loc main_arg7)) :=
  (W2_of_ne m ρ c main_arg7 (by decide)).trans (W1_arg7 m ρ c)

theorem W2_arg8 (c : Dev nD) : W2 m ρ c (Proc.devRef .tc main_arg8) = (m ((c : Thread nD τ).loc main_arg8)) :=
  (W2_of_ne m ρ c main_arg8 (by decide)).trans (W1_arg8 m ρ c)

set_option maxHeartbeats 2000000 in
theorem entry1_features (c : Dev nD) :
    V3 m ρ c main_v35 = scaledMessages ((dat0 (V1 m ρ) c).arrAt 3 cfg0.N) (m ((c : Thread nD τ).loc main_arg5)) (m ((c : Thread nD τ).loc main_arg6)) (inverseDegree (m ((c : Thread nD τ).loc main_arg6))) := by
  have h : V3 m ρ c main_v35 = scaledMessages (W2 m ρ c (Proc.devRef .tc main_v22)) (W2 m ρ c (Proc.devRef .tc main_arg5)) (W2 m ρ c (Proc.devRef .tc main_arg6)) (W2 m ρ c (Proc.devRef .tc main_v7)) := by
    dsimp only [V3, W3, hostOps1]
    after_results
    rfl
  rw [h, W2_hidden, W2_arg5, W2_arg6, W2_inverseDegree]

theorem entry1_weights (c : Dev nD) : V3 m ρ c main_arg3 = (m ((c : Thread nD τ).loc main_arg3)) := by
  have h : V3 m ρ c main_arg3 = (W2 m ρ c (Proc.devRef .tc main_arg3)) := by
    dsimp only [V3, W3, hostOps1]
    after_results
  rw [h, W2_arg3]

theorem entry1_bias (c : Dev nD) : V3 m ρ c main_v36 = biasRow (m ((c : Thread nD τ).loc main_arg4)) := by
  have h : V3 m ρ c main_v36 = biasRow (W2 m ρ c (Proc.devRef .tc main_arg4)) := by
    dsimp only [V3, W3, hostOps1]
    after_results
    rfl
  rw [h, W2_arg4]

theorem W3_arg7 (c : Dev nD) : W3 m ρ c (Proc.devRef .tc main_arg7) = (m ((c : Thread nD τ).loc main_arg7)) := by
  have h : W3 m ρ c (Proc.devRef .tc main_arg7) = (W2 m ρ c (Proc.devRef .tc main_arg7)) := by
    dsimp only [W3, hostOps1]
    after_results
  rw [h, W2_arg7]

theorem W3_arg8 (c : Dev nD) : W3 m ρ c (Proc.devRef .tc main_arg8) = (m ((c : Thread nD τ).loc main_arg8)) := by
  have h : W3 m ρ c (Proc.devRef .tc main_arg8) = (W2 m ρ c (Proc.devRef .tc main_arg8)) := by
    dsimp only [W3, hostOps1]
    after_results
  rw [h, W2_arg8]

/-! ## After the second region -/

theorem W4_hidden (c : Dev nD) : W4 m ρ c (Proc.devRef .tc main_v37) = (dat1 (V3 m ρ) c).arrAt 3 cfg1.N := W4_arr m ρ c 3

theorem W4_arg7 (c : Dev nD) : W4 m ρ c (Proc.devRef .tc main_arg7) = (m ((c : Thread nD τ).loc main_arg7)) :=
  (W4_of_ne m ρ c main_arg7 (by decide)).trans (W3_arg7 m ρ c)

theorem W4_arg8 (c : Dev nD) : W4 m ρ c (Proc.devRef .tc main_arg8) = (m ((c : Thread nD τ).loc main_arg8)) :=
  (W4_of_ne m ρ c main_arg8 (by decide)).trans (W3_arg8 m ρ c)

set_option maxHeartbeats 2000000 in
theorem entry2_users (c : Dev nD) : V5 m ρ c main_v44 = rowsAt ((dat1 (V3 m ρ) c).arrAt 3 cfg1.N) (m ((c : Thread nD τ).loc main_arg7)) := by
  have h : V5 m ρ c main_v44 = rowsAt (W4 m ρ c (Proc.devRef .tc main_v37)) (W4 m ρ c (Proc.devRef .tc main_arg7)) := by
    dsimp only [V5, W5, hostOps2]
    after_results
    rfl
  rw [h, W4_hidden, W4_arg7]

set_option maxHeartbeats 2000000 in
theorem entry2_items (c : Dev nD) : V5 m ρ c main_v51 = rowsAt ((dat1 (V3 m ρ) c).arrAt 3 cfg1.N) (m ((c : Thread nD τ).loc main_arg8)) := by
  have h : V5 m ρ c main_v51 = rowsAt (W4 m ρ c (Proc.devRef .tc main_v37)) (W4 m ρ c (Proc.devRef .tc main_arg8)) := by
    dsimp only [V5, W5, hostOps2]
    after_results
    rfl
  rw [h, W4_hidden, W4_arg8]

/-! ## After the last region -/

theorem W6_result (c : Dev nD) : W6 m ρ c (Proc.devRef .tc main_v52) = (dat2 (V5 m ρ) c).arrAt 2 cfg2.N := W6_arr m ρ c 2

end Cert.KernelIdeal.Stages

end
-- ==== Proof.LayerBody.lean ====
/-
  One graph layer on the TensorCore (regions 0 and 1 of the idealized kernel program run the same body), read as ONE function of whole arrays.

  Each of the two regions walks the 50000 node rows in ten blocks of 5000. At a block the body multiplies the block of aggregated
  features [5000, 64] by the weight matrix along BOTH operands' second axis (out[p, q] = sum over k of x[p, k] * w[q, k]:
  the weights are used transposed without ever being transposed), adds the bias row, and takes the hyperbolic tangent.
  At the ideal values the roundings to bf16 on the way into the product are the identity and the product into a zero
  accumulator is the plain sum, so row r, column q of the whole result is

      tanh (sum over k of x[r, k] * w[q, k] + bias[0, q]),

  a function of row r of the features alone: block t of the output is rows 5000 t … 5000 t + 4999 of that one function,
  and the ten blocks tile the array. This module holds the function and the body's arithmetic at one element of a block;
  the two regions' modules carry it from the blocks to the array.
-/
import proofs.«118432_j87952340287676_1_alg».proof.Proof.Patched.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Layer

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

/-! ## The layer, index by index -/

/-- Row `i 0` of the features at column `k`. -/
abbrev featAt (i : S50000x64.Idx) (k : Fin 64) : S50000x64.Idx := fun a => match a with
  | ⟨0, _⟩ => ⟨(i 0).val, (i 0).isLt⟩
  | ⟨1, _⟩ => ⟨k.val, k.isLt⟩
/-- Row `i 1` of the weights (the output column) at column `k`. -/
abbrev weightAt (i : S50000x64.Idx) (k : Fin 64) : S64x64.Idx := fun a => match a with
  | ⟨0, _⟩ => ⟨(i 1).val, (i 1).isLt⟩
  | ⟨1, _⟩ => ⟨k.val, k.isLt⟩
/-- The bias row at the output column. -/
abbrev biasAt (i : S50000x64.Idx) : S1x64.Idx := fun a => match a with
  | ⟨0, _⟩ => ⟨0, Nat.one_pos⟩
  | ⟨1, _⟩ => ⟨(i 1).val, (i 1).isLt⟩

/-- The layer as one function of whole arrays: tanh of the row of features against the row of weights, plus the bias. -/
def layerAt (x : S50000x64.Idx → EReal) (w : S64x64.Idx → EReal) (b : S1x64.Idx → EReal) : S50000x64.Idx → EReal :=
  fun i => Ideal.tanh (∑ k : Fin 64, x (featAt i k) * w (weightAt i k) + b (biasAt i))

/-! ## The body's arithmetic at one element of a block -/

theorem lhs_row (j : S5000x64.Idx) (q : dot_S5000x64_S64x64_S5000x64_1_1_0_0_n_n.contr.Idx) :
    (dot_S5000x64_S64x64_S5000x64_1_1_0_0_n_n.lhsIdx j q 0).val = (j 0).val := by
  unfold DotDims.lhsIdx
  rw [dif_neg (show ¬(0 : Fin S5000x64.rank) ∈ dot_S5000x64_S64x64_S5000x64_1_1_0_0_n_n.lhsBatch by decide), dif_pos (show (0 : Fin S5000x64.rank) ∈ dot_S5000x64_S64x64_S5000x64_1_1_0_0_n_n.lhsNonContracting by decide)]
  rfl
theorem lhs_col (j : S5000x64.Idx) (q : dot_S5000x64_S64x64_S5000x64_1_1_0_0_n_n.contr.Idx) :
    (dot_S5000x64_S64x64_S5000x64_1_1_0_0_n_n.lhsIdx j q 1).val = (q ⟨0, by decide⟩).val :=
  dot_S5000x64_S64x64_S5000x64_1_1_0_0_n_n.lhsIdx_val_of_single rfl j q
theorem rhs_row (j : S5000x64.Idx) (q : dot_S5000x64_S64x64_S5000x64_1_1_0_0_n_n.contr.Idx) :
    (dot_S5000x64_S64x64_S5000x64_1_1_0_0_n_n.rhsIdx j q 0).val = (j 1).val := by
  unfold DotDims.rhsIdx
  rw [dif_neg (show ¬(0 : Fin S64x64.rank) ∈ dot_S5000x64_S64x64_S5000x64_1_1_0_0_n_n.rhsBatch by decide), dif_pos (show (0 : Fin S64x64.rank) ∈ dot_S5000x64_S64x64_S5000x64_1_1_0_0_n_n.rhsNonContracting by decide)]
  rfl
theorem rhs_col (j : S5000x64.Idx) (q : dot_S5000x64_S64x64_S5000x64_1_1_0_0_n_n.contr.Idx) :
    (dot_S5000x64_S64x64_S5000x64_1_1_0_0_n_n.rhsIdx j q 1).val = (q ⟨0, by decide⟩).val :=
  dot_S5000x64_S64x64_S5000x64_1_1_0_0_n_n.rhsIdx_val_of_single rfl j q

/-- The product of a block of features with the weights, both contracted along their second axis, into the zero
    accumulator: at row p, column q of the block the sum over k of x[p, k] * w[q, k]. -/
theorem product_at (x : FVec Ideal S5000x64 .bf16) (w : FVec Ideal S64x64 .bf16) (p : Fin 5000) (q : Fin 64) :
    matmul dot_S5000x64_S64x64_S5000x64_1_1_0_0_n_n none x w (constant S5000x64 .f32 0x00000000#32) (ix2 p q)
      = ∑ k : Fin 64, x (ix2 p k) * w (ix2 q k) := by
  simp only [matmul]
  rw [Ideal.matmul_constant_zero_apply, ← Equiv.sum_comp (contrEquiv1 dot_S5000x64_S64x64_S5000x64_1_1_0_0_n_n 64 rfl rfl).symm]
  refine Finset.sum_congr rfl fun k _ => ?_
  have hk := contrEquiv1_symm_val dot_S5000x64_S64x64_S5000x64_1_1_0_0_n_n 64 rfl rfl k
  have el : dot_S5000x64_S64x64_S5000x64_1_1_0_0_n_n.lhsIdx (ix2 p q) ((contrEquiv1 dot_S5000x64_S64x64_S5000x64_1_1_0_0_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_1_0_0_n_n.rhsIdx (ix2 p q) ((contrEquiv1 dot_S5000x64_S64x64_S5000x64_1_1_0_0_n_n 64 rfl rfl).symm k) = ix2 q k := funext fun a => Fin.ext (by
    match a with
    | ⟨0, _⟩ => exact rhs_row _ _
    | ⟨1, _⟩ => exact (rhs_col _ _).trans hk)
  rw [el, er]

/-- The bias row spread over the block: at row p, column q the bias at column q. -/
theorem bias_at (b : S1x64.Idx → EReal) (p : Fin 5000) (q : Fin 64) :
    broadcastTo S5000x64 b broadcasts_S1x64_S5000x64 (ix2 p q) = b (ix2 (0 : Fin 1) q) :=
  broadcastTo_apply b broadcasts_S1x64_S5000x64 (ix2 p q) (ix2 (0 : Fin 1) q) (fun a => match a with
    | ⟨0, _⟩ => by show (0 : Nat) = if (1 : Nat) = 1 then 0 else _; rw [if_pos rfl]
    | ⟨1, _⟩ => by show q.val = if (64 : Nat) = 1 then 0 else q.val; rw [if_neg (by decide)])

/-- What region 0's body stores, at row p, column q of the block. -/
theorem payload0_at (x : Vec Ideal S5000x64 .f32) (w : Vec Ideal S64x64 .f32) (b : Vec Ideal S1x64 .f32) (p : Fin 5000) (q : Fin 64) :
    k0_pay1 (F := Ideal) x w b (ix2 p q) = Ideal.tanh (∑ k : Fin 64, x (ix2 p k) * w (ix2 q k) + b (ix2 (0 : Fin 1) q)) := by
  unfold k0_pay1
  simp only [shapeCast_self]
  show Ideal.tanh (matmul (F := Ideal) dot_S5000x64_S64x64_S5000x64_1_1_0_0_n_n none (truncf (F := Ideal) .bf16 x bitsLt_bf16_f32) (truncf (F := Ideal) .bf16 w bitsLt_bf16_f32) (constant (F := Ideal) S5000x64 .f32 0x00000000#32) (ix2 p q)
      + broadcastTo S5000x64 b broadcasts_S1x64_S5000x64 (ix2 p q)) = _
  rw [product_at, bias_at]
  rfl

/-- What region 1's body stores, at row p, column q of the block. -/
theorem payload1_at (x : Vec Ideal S5000x64 .f32) (w : Vec Ideal S64x64 .f32) (b : Vec Ideal S1x64 .f32) (p : Fin 5000) (q : Fin 64) :
    k1_pay1 (F := Ideal) x w b (ix2 p q) = Ideal.tanh (∑ k : Fin 64, x (ix2 p k) * w (ix2 q k) + b (ix2 (0 : Fin 1) q)) := by
  unfold k1_pay1
  simp only [shapeCast_self]
  show Ideal.tanh (matmul (F := Ideal) dot_S5000x64_S64x64_S5000x64_1_1_0_0_n_n none (truncf (F := Ideal) .bf16 x bitsLt_bf16_f32) (truncf (F := Ideal) .bf16 w bitsLt_bf16_f32) (constant (F := Ideal) S5000x64 .f32 0x00000000#32) (ix2 p q)
      + broadcastTo S5000x64 b broadcasts_S1x64_S5000x64 (ix2 p q)) = _
  rw [product_at, bias_at]
  rfl

end Cert.KernelIdeal.Layer

end
-- ==== Proof.Layer0.lean ====
/-
  Region 0 of the idealized kernel program, from its blocks to its output array.

  The region's grid has ten points; point t fetches rows 5000 t … 5000 t + 4999 of the features (all 64 columns), the
  whole weight matrix and the whole bias row, and writes back the same rows of the output. What the body leaves at a
  point is the layer's function (Proof/LayerBody.lean) read through that block, whatever the point, so the array the
  region leaves is that function of the three operand arrays as the region finds them — at ANY contents `V` of the
  buffers when the region is entered.
-/
import proofs.«118432_j87952340287676_1_alg».proof.Proof.LayerBody

set_option maxRecDepth 16384

noncomputable section

namespace Cert.KernelIdeal.Layer0

open Cert.KernelIdeal Cert.KernelIdeal.Gen Cert.KernelIdeal.GenP Cert.KernelIdeal.Layer
open Idealize.ShloMosaic Idealize.ShloMosaic.TcCoe Idealize.SL.Sem Idealize.ShloMosaic.ValueIdx
open Idealize.ShloMosaic.Pipeline (Dat)

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the features' and the output's block index is the point along the rows and 0
    along the columns; the weights and the bias are one block each. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

set_option maxHeartbeats 2000000 in
/-- What point `t` writes back is block `t` of the layer of the arrays as the region finds them: rows 5000 t + p. -/
theorem flushed_eq (c : Dev nD) (t : Fin cfg0.N) :
    (dat0 V c).flushed 3 t = ((cfg0.win 3).blk t).view.read (Elt Ideal) (layerAt (V c main_v20) (V c main_arg1) (V c main_v21)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz, View.ld_unit_zero (S := S1x64) hz]
  obtain ⟨e0, e1, e2, e3, e4, e5, e6, e7⟩ := index_maps t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (ix2 p q)
    = layerAt (V c main_v20) (V c main_arg1) (V c main_v21) (((cfg0.win 3).blk t).view.emb (ix2 p q))
  rw [payload0_at]
  unfold layerAt
  have hb : ((cfg0.win 2).blk t).view.emb (ix2 (0 : Fin 1) q) = biasAt (((cfg0.win 3).blk t).view.emb (ix2 p q)) := by
    funext a; apply Fin.ext
    match a with
    | ⟨0, _⟩ => show win0_2.index t (0 : Fin 2) * 1 + 1 * 0 = 0; omega
    | ⟨1, _⟩ => show win0_2.index t (1 : Fin 2) * 64 + 1 * q.val = win0_3.index t (1 : Fin 2) * 64 + 1 * q.val; omega
  have hx : ∀ k : Fin 64, ((cfg0.win 0).blk t).view.emb (ix2 p k) = featAt (((cfg0.win 3).blk t).view.emb (ix2 p q)) k := by
    intro k; funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 64 + 1 * k.val = k.val; omega
  have hw : ∀ k : Fin 64, ((cfg0.win 1).blk t).view.emb (ix2 q k) = weightAt (((cfg0.win 3).blk t).view.emb (ix2 p q)) k := by
    intro k; funext a; apply Fin.ext
    match a with
    | ⟨0, _⟩ => show win0_1.index t (0 : Fin 2) * 64 + 1 * q.val = win0_3.index t (1 : Fin 2) * 64 + 1 * q.val; omega
    | ⟨1, _⟩ => show win0_1.index t (1 : Fin 2) * 64 + 1 * k.val = k.val; omega
  refine congrArg Ideal.tanh (congrArg₂ (· + ·) (Finset.sum_congr rfl fun k _ => ?_) ?_)
  · rw [← hx k, ← hw k]; rfl
  · rw [← hb]; rfl

/-- An index of the output array is in point `t`'s block iff each coordinate is in the block's range on its axis. -/
theorem mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v22).slice (win0_3.rect t)).set ↔ _
  rw [View.set_slice_whole, Rect.mem_set_unit]
  exact Iff.rfl

/-- Row r of the output lies in the block of point r / 5000: the ten blocks tile the array. -/
theorem covered (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : (i 0).val / 5000 < cfg0.N := by show _ < grid0.N; rw [N_0]; omega
  obtain ⟨_, _, _, _, _, _, e6, e7⟩ := index_maps ⟨(i 0).val / 5000, hN⟩
  refine ⟨⟨(i 0).val / 5000, hN⟩, flush0_3 _, ?_⟩
  rw [mem_blk]
  intro a
  match a with
  | ⟨0, _⟩ =>
    show win0_3.index ⟨(i 0).val / 5000, hN⟩ (0 : Fin 2) * 5000 ≤ (i 0).val ∧ (i 0).val < win0_3.index ⟨(i 0).val / 5000, hN⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, hN⟩ (1 : Fin 2) * 64 ≤ (i 1).val ∧ (i 1).val < win0_3.index ⟨(i 0).val / 5000, hN⟩ (1 : Fin 2) * 64 + 64
    rw [e7]; omega

/-- THE OUTPUT ARRAY after the region: the layer of the three operand arrays as the region finds them. -/
theorem final (c : Dev nD) : (dat0 V c).arrAt 3 cfg0.N = layerAt (V c main_v20) (V c main_arg1) (V c main_v21) :=
  (dat0 V c).arrAt_eq_of_cover 3 (layerAt (V c main_v20) (V c main_arg1) (V c main_v21)) (fun t _ => flushed_eq V c t) (covered)

end Cert.KernelIdeal.Layer0

end
-- ==== Proof.Layer1.lean ====
/-
  Region 1 of the idealized kernel program, from its blocks to its output array.

  The region's grid has ten points; point t fetches rows 5000 t … 5000 t + 4999 of the features (all 64 columns), the
  whole weight matrix and the whole bias row, and writes back the same rows of the output. What the body leaves at a
  point is the layer's function (Proof/LayerBody.lean) read through that block, whatever the point, so the array the
  region leaves is that function of the three operand arrays as the region finds them — at ANY contents `V` of the
  buffers when the region is entered.
-/
import proofs.«118432_j87952340287676_1_alg».proof.Proof.LayerBody

set_option maxRecDepth 16384

noncomputable section

namespace Cert.KernelIdeal.Layer1

open Cert.KernelIdeal Cert.KernelIdeal.Gen Cert.KernelIdeal.GenP Cert.KernelIdeal.Layer
open Idealize.ShloMosaic Idealize.ShloMosaic.TcCoe Idealize.SL.Sem Idealize.ShloMosaic.ValueIdx
open Idealize.ShloMosaic.Pipeline (Dat)

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the features' and the output's block index is the point along the rows and 0
    along the columns; the weights and the bias are one block each. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

set_option maxHeartbeats 2000000 in
/-- What point `t` writes back is block `t` of the layer of the arrays as the region finds them: rows 5000 t + p. -/
theorem flushed_eq (c : Dev nD) (t : Fin cfg1.N) :
    (dat1 V c).flushed 3 t = ((cfg1.win 3).blk t).view.read (Elt Ideal) (layerAt (V c main_v35) (V c main_arg3) (V c main_v36)) := by
  show (cfg1.win 3).cut (grid1.coords t) ((dat1 V c).after 3 t) = _
  rw [after1_3]
  unfold out1_3
  rw [View.canon_unit_zero hz]
  simp only [View.ld_unit_zero (S := S5000x64) hz, View.ld_unit_zero (S := S64x64) hz, View.ld_unit_zero (S := S1x64) hz]
  obtain ⟨e0, e1, e2, e3, e4, e5, e6, e7⟩ := index_maps t
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (ix2 p q)
    = layerAt (V c main_v35) (V c main_arg3) (V c main_v36) (((cfg1.win 3).blk t).view.emb (ix2 p q))
  rw [payload1_at]
  unfold layerAt
  have hb : ((cfg1.win 2).blk t).view.emb (ix2 (0 : Fin 1) q) = biasAt (((cfg1.win 3).blk t).view.emb (ix2 p q)) := by
    funext a; apply Fin.ext
    match a with
    | ⟨0, _⟩ => show win1_2.index t (0 : Fin 2) * 1 + 1 * 0 = 0; omega
    | ⟨1, _⟩ => show win1_2.index t (1 : Fin 2) * 64 + 1 * q.val = win1_3.index t (1 : Fin 2) * 64 + 1 * q.val; omega
  have hx : ∀ k : Fin 64, ((cfg1.win 0).blk t).view.emb (ix2 p k) = featAt (((cfg1.win 3).blk t).view.emb (ix2 p q)) k := by
    intro k; funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 64 + 1 * k.val = k.val; omega
  have hw : ∀ k : Fin 64, ((cfg1.win 1).blk t).view.emb (ix2 q k) = weightAt (((cfg1.win 3).blk t).view.emb (ix2 p q)) k := by
    intro k; funext a; apply Fin.ext
    match a with
    | ⟨0, _⟩ => show win1_1.index t (0 : Fin 2) * 64 + 1 * q.val = win1_3.index t (1 : Fin 2) * 64 + 1 * q.val; omega
    | ⟨1, _⟩ => show win1_1.index t (1 : Fin 2) * 64 + 1 * k.val = k.val; omega
  refine congrArg Ideal.tanh (congrArg₂ (· + ·) (Finset.sum_congr rfl fun k _ => ?_) ?_)
  · rw [← hx k, ← hw k]; rfl
  · rw [← hb]; rfl

/-- An index of the output array is in point `t`'s block iff each coordinate is in the block's range on its axis. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v37).slice (win1_3.rect t)).set ↔ _
  rw [View.set_slice_whole, Rect.mem_set_unit]
  exact Iff.rfl

/-- Row r of the output lies in the block of point r / 5000: the ten blocks tile the array. -/
theorem covered (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : (i 0).val / 5000 < cfg1.N := by show _ < grid1.N; rw [N_1]; omega
  obtain ⟨_, _, _, _, _, _, e6, e7⟩ := index_maps ⟨(i 0).val / 5000, hN⟩
  refine ⟨⟨(i 0).val / 5000, hN⟩, flush1_3 _, ?_⟩
  rw [mem_blk]
  intro a
  match a with
  | ⟨0, _⟩ =>
    show win1_3.index ⟨(i 0).val / 5000, hN⟩ (0 : Fin 2) * 5000 ≤ (i 0).val ∧ (i 0).val < win1_3.index ⟨(i 0).val / 5000, hN⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, hN⟩ (1 : Fin 2) * 64 ≤ (i 1).val ∧ (i 1).val < win1_3.index ⟨(i 0).val / 5000, hN⟩ (1 : Fin 2) * 64 + 64
    rw [e7]; omega

/-- THE OUTPUT ARRAY after the region: the layer of the three operand arrays as the region finds them. -/
theorem final (c : Dev nD) : (dat1 V c).arrAt 3 cfg1.N = layerAt (V c main_v35) (V c main_arg3) (V c main_v36) :=
  (dat1 V c).arrAt_eq_of_cover 3 (layerAt (V c main_v35) (V c main_arg3) (V c main_v36)) (fun t _ => flushed_eq V c t) (covered)

end Cert.KernelIdeal.Layer1

end
-- ==== Proof.Score.lean ====
/-
  The scores on the TensorCore, region 2 of the idealized kernel program, read as ONE function of whole arrays.

  The region walks the 1024 batch rows in sixteen blocks of 64. At a block the body multiplies the user rows by the
  item rows element by element ([64, 100, 64] each) and sums along the last axis. At the ideal values that lane sum from
  the zero accumulator is the plain sum, so entry (r, s) of the whole result is

      sum over k of users[r, s, k] * items[r, s, k],

  a function of batch row r alone: block t of the output is rows 64 t … 64 t + 63 of that one function, and the sixteen
  blocks tile the array. Everything here is stated at ANY contents `V` of the buffers when the region is entered.
-/
import proofs.«118432_j87952340287676_1_alg».proof.Proof.Patched.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Score

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

/-! ## The scores, index by index -/

/-- Entry (i 0, i 1) of the gathered rows at feature k. -/
abbrev featureAt (i : S1024x100.Idx) (k : Fin 64) : S1024x100x64.Idx := fun a => match a with
  | ⟨0, _⟩ => ⟨(i 0).val, (i 0).isLt⟩
  | ⟨1, _⟩ => ⟨(i 1).val, (i 1).isLt⟩
  | ⟨2, _⟩ => ⟨k.val, k.isLt⟩

/-- The inner product along the feature axis as one function of whole arrays. -/
def scoreAt (u v : S1024x100x64.Idx → EReal) : S1024x100.Idx → EReal :=
  fun i => ∑ k : Fin 64, u (featureAt i k) * v (featureAt i k)

/-! ## The body's arithmetic at one element of a block -/

/-- What the body stores, at row p, column q of the block: the sum over the features of the products. -/
theorem payload_at (u v : Vec Ideal S64x100x64 .f32) (p : Fin 64) (q : Fin 100) :
    k2_pay1 (F := Ideal) u v (ix2 p q) = ∑ k : Fin 64, u (ix3 p q k) * v (ix3 p q k) := by
  unfold k2_pay1
  simp only [shapeCast_self]
  refine (Ideal.multiReduction_add_single (mulf (F := Ideal) u v) 0x00000000#32 reduces_S64x100x64_S64x100 (.inl rfl) rfl (ix2 p q)).trans ?_
  show ∑ k : Fin 64, mulf (F := Ideal) u v (reduces_S64x100x64_S64x100.lift (ix2 p q) k) = _
  refine Finset.sum_congr rfl fun k _ => ?_
  have e : reduces_S64x100x64_S64x100.lift (ix2 p q) k = ix3 p q k := funext fun a => Fin.ext (by
    match a with
    | ⟨0, _⟩ => rfl
    | ⟨1, _⟩ => rfl
    | ⟨2, _⟩ => rfl)
  rw [e]
  rfl

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: every window's block index is the point along the batch rows and 0 along
    the other axes. -/
theorem index_maps : ∀ t : Fin cfg2.N, win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 2) = t.val ∧ win2_2.index t (1 : Fin 2) = 0 :=
  (by decide +kernel : ∀ t : Fin grid2.N, _)

set_option maxHeartbeats 2000000 in
/-- What point `t` writes back is block `t` of the scores of the arrays as the region finds them: rows 64 t + p. -/
theorem flushed_eq (c : Dev nD) (t : Fin cfg2.N) :
    (dat2 V c).flushed 2 t = ((cfg2.win 2).blk t).view.read (Elt Ideal) (scoreAt (V c main_v44) (V c main_v51)) := by
  show (cfg2.win 2).cut (grid2.coords t) ((dat2 V c).after 2 t) = _
  rw [after2_2]
  unfold out2_2
  rw [View.canon_unit_zero hz2]
  simp only [View.ld_unit_zero (S := S64x100x64) hz3]
  obtain ⟨e0, e1, e2, e3, e4, e5, e6, e7⟩ := index_maps t
  funext j
  obtain ⟨p, q, rfl⟩ : ∃ (p : Fin 64) (q : Fin 100), j = ix2 p q := ⟨j 0, j 1, eq_ix2 j⟩
  show k2_pay1 (F := Ideal) (iblk2 V c 0 t) (iblk2 V c 1 t) (ix2 p q)
    = scoreAt (V c main_v44) (V c main_v51) (((cfg2.win 2).blk t).view.emb (ix2 p q))
  rw [payload_at]
  unfold scoreAt
  have hu : ∀ k : Fin 64, ((cfg2.win 0).blk t).view.emb (ix3 p q k) = featureAt (((cfg2.win 2).blk t).view.emb (ix2 p q)) k := by
    intro k; funext a; apply Fin.ext
    match a with
    | ⟨0, _⟩ => show win2_0.index t (0 : Fin 3) * 64 + 1 * p.val = win2_2.index t (0 : Fin 2) * 64 + 1 * p.val; omega
    | ⟨1, _⟩ => show win2_0.index t (1 : Fin 3) * 100 + 1 * q.val = win2_2.index t (1 : Fin 2) * 100 + 1 * q.val; omega
    | ⟨2, _⟩ => show win2_0.index t (2 : Fin 3) * 64 + 1 * k.val = k.val; omega
  have hv : ∀ k : Fin 64, ((cfg2.win 1).blk t).view.emb (ix3 p q k) = featureAt (((cfg2.win 2).blk t).view.emb (ix2 p q)) k := by
    intro k; funext a; apply Fin.ext
    match a with
    | ⟨0, _⟩ => show win2_1.index t (0 : Fin 3) * 64 + 1 * p.val = win2_2.index t (0 : Fin 2) * 64 + 1 * p.val; omega
    | ⟨1, _⟩ => show win2_1.index t (1 : Fin 3) * 100 + 1 * q.val = win2_2.index t (1 : Fin 2) * 100 + 1 * q.val; omega
    | ⟨2, _⟩ => show win2_1.index t (2 : Fin 3) * 64 + 1 * k.val = k.val; omega
  refine Finset.sum_congr rfl fun k _ => congrArg₂ (· * ·) ?_ ?_
  · rw [← hu k]; rfl
  · rw [← hv k]; rfl

/-- An index of the output array is in point `t`'s block iff each coordinate is in the block's range on its axis. -/
theorem mem_blk (t : Fin cfg2.N) (i : S1024x100.Idx) :
    i ∈ ((cfg2.win 2).blk t).view.set ↔ ∀ a : Fin 2, win2_2.index t a * S64x100.size a ≤ (i a).val ∧ (i a).val < win2_2.index t a * S64x100.size a + S64x100.size a := by
  show i ∈ ((View.whole main_v52).slice (win2_2.rect t)).set ↔ _
  rw [View.set_slice_whole, Rect.mem_set_unit]
  exact Iff.rfl

/-- Row r of the output lies in the block of point r / 64: the sixteen blocks tile the array. -/
theorem covered (i : S1024x100.Idx) : ∃ t : Fin cfg2.N, (cfg2.win 2).flush t = true ∧ i ∈ ((cfg2.win 2).blk t).view.set := by
  have hi0 : (i 0).val < 1024 := (i 0).isLt
  have hi1 : (i 1).val < 100 := (i 1).isLt
  have hN : (i 0).val / 64 < cfg2.N := by show _ < grid2.N; rw [N_2]; omega
  obtain ⟨_, _, _, _, _, _, e6, e7⟩ := index_maps ⟨(i 0).val / 64, hN⟩
  refine ⟨⟨(i 0).val / 64, hN⟩, flush2_2 _, ?_⟩
  rw [mem_blk]
  intro a
  match a with
  | ⟨0, _⟩ =>
    show win2_2.index ⟨(i 0).val / 64, hN⟩ (0 : Fin 2) * 64 ≤ (i 0).val ∧ (i 0).val < win2_2.index ⟨(i 0).val / 64, hN⟩ (0 : Fin 2) * 64 + 64
    rw [e6]; show (i 0).val / 64 * 64 ≤ (i 0).val ∧ (i 0).val < (i 0).val / 64 * 64 + 64; omega
  | ⟨1, _⟩ =>
    show win2_2.index ⟨(i 0).val / 64, hN⟩ (1 : Fin 2) * 100 ≤ (i 1).val ∧ (i 1).val < win2_2.index ⟨(i 0).val / 64, hN⟩ (1 : Fin 2) * 100 + 100
    rw [e7]; omega

/-- THE OUTPUT ARRAY after the region: the scores of the two operand arrays as the region finds them. -/
theorem final (c : Dev nD) : (dat2 V c).arrAt 2 cfg2.N = scoreAt (V c main_v44) (V c main_v51) :=
  (dat2 V c).arrAt_eq_of_cover 2 (scoreAt (V c main_v44) (V c main_v51)) (fun t _ => flushed_eq V c t) (covered)

end Cert.KernelIdeal.Score

end
-- ==== Proof.RefStages.lean ====
/-
  The reference program's result as a composition of a few named stages.

  The reference is, twice over, "average the features of each node's in-neighbours, apply a linear layer and tanh",
  followed by the inner products of the user rows with the item rows. Each stage is named here over ARBITRARY
  operands, in the reference's own operations, so that the run's one long term of the argument arrays folds into
  `score (layer (meanOfNeighbours …) …) …`, and so that a stage can be compared with the kernel's counterpart on
  its own.
-/
import proofs.«118432_j87952340287676_1_alg».proof.Proof.Gen.ReferenceIdeal.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- A node index counted from the end when it is negative: jax's wrap-around of an index into the 50000 nodes. -/
def wrapEdge (s : (⟨S1250000, .i32⟩ : BufTy).Contents (Elt F)) : (⟨S1250000, .i32⟩ : BufTy).Contents (Elt F) :=
  select (cmpi .slt s (broadcastInDim S1250000 ![] bcast_S_S1250000 (constantI S_ 32 0#32)))
    (addi s (broadcastInDim S1250000 ![] bcast_S_S1250000 (constantI S_ 32 50000#32))) s

/-- The sum, into each destination node, of the features of the source nodes of its incoming edges: a gather of
    the rows at the edge sources scattered with addition to the rows at the edge destinations. -/
def messageSum (h : (⟨S50000x64, .f32⟩ : BufTy).Contents (Elt F)) (src dst : (⟨S1250000, .i32⟩ : BufTy).Contents (Elt F)) :
    (⟨S50000x64, .f32⟩ : BufTy).Contents (Elt F) :=
  Host.scatterAdd scatter_S50000x64_S1250000x1_S1250000x64_1_0_0_1
    (broadcastInDim S50000x64 ![] bcast_S_S50000x64 (constant S_ .f32 0x00000000#32))
    (broadcastInDim S1250000x1 ![0] bcast_S1250000_S1250000x1_0 dst)
    (Host.gather gather_S50000x64_S1250000x1_S1250000x64_1_0_n_n_0_1_164 h
      (broadcastInDim S1250000x1 ![0] bcast_S1250000_S1250000x1_0 (wrapEdge src)))

/-- The number of incoming edges of each node (ones scattered with addition), not below one. -/
def degreeOrOne (dst : (⟨S1250000, .i32⟩ : BufTy).Contents (Elt F)) : (⟨S50000, .f32⟩ : BufTy).Contents (Elt F) :=
  maximumf
    (Host.scatterAdd scatter_S50000_S1250000x1_S1250000_n_0_0_1
      (broadcastInDim S50000 ![] bcast_S_S50000 (constant S_ .f32 0x00000000#32))
      (broadcastInDim S1250000x1 ![0] bcast_S1250000_S1250000x1_0 dst)
      (broadcastInDim S1250000 ![] bcast_S_S1250000 (constant S_ .f32 0x3F800000#32)))
    (broadcastInDim S50000 ![] bcast_S_S50000 (constant S_ .f32 0x3F800000#32))

/-- A value per node spread along the feature axis. -/
def perNode (v : (⟨S50000, .f32⟩ : BufTy).Contents (Elt F)) : (⟨S50000x64, .f32⟩ : BufTy).Contents (Elt F) :=
  broadcastInDim S50000x64 ![0, 1] bcast_S50000x1_S50000x64_0_1 (broadcastInDim S50000x1 ![0] bcast_S50000_S50000x1_0 v)

/-- A node index of the batch counted from the end when it is negative. -/
def wrapBatch (s : (⟨S1024x100, .i32⟩ : BufTy).Contents (Elt F)) : (⟨S1024x100, .i32⟩ : BufTy).Contents (Elt F) :=
  select (cmpi .slt s (broadcastInDim S1024x100 ![] bcast_S_S1024x100 (constantI S_ 32 0#32)))
    (addi s (broadcastInDim S1024x100 ![] bcast_S_S1024x100 (constantI S_ 32 50000#32))) s

/-- The rows of the node features at a batch of node indices. -/
def rowsAt (h : (⟨S50000x64, .f32⟩ : BufTy).Contents (Elt F)) (idx : (⟨S1024x100, .i32⟩ : BufTy).Contents (Elt F)) :
    (⟨S1024x100x64, .f32⟩ : BufTy).Contents (Elt F) :=
  Host.gather gather_S50000x64_S1024x100x1_S1024x100x64_2_0_n_n_0_2_164 h
    (broadcastInDim S1024x100x1 ![0, 1] bcast_S1024x100_S1024x100x1_0_1 (wrapBatch idx))

/-- The mean of the in-neighbours' features: the sum of the messages divided by the degree (or by one). -/
def meanOfNeighbours (h : (⟨S50000x64, .f32⟩ : BufTy).Contents (Elt F)) (src dst : (⟨S1250000, .i32⟩ : BufTy).Contents (Elt F)) :
    (⟨S50000x64, .f32⟩ : BufTy).Contents (Elt F) :=
  Host.divf (messageSum h src dst) (perNode (degreeOrOne dst))

/-- The linear layer and tanh: x times the transposed weights, plus the bias on every row. -/
def layer (x : (⟨S50000x64, .f32⟩ : BufTy).Contents (Elt F)) (w : (⟨S64x64, .f32⟩ : BufTy).Contents (Elt F))
    (b : (⟨S64, .f32⟩ : BufTy).Contents (Elt F)) : (⟨S50000x64, .f32⟩ : BufTy).Contents (Elt F) :=
  Host.tanh (addf (Host.dotGeneral dot_S50000x64_S64x64_S50000x64_1_0_0_1_n_n none x (transpose S64x64 [1, 0] w transposes_S64x64_S64x64_1_0))
    (broadcastInDim S50000x64 ![0, 1] bcast_S1x64_S50000x64_0_1 (broadcastInDim S1x64 ![1] bcast_S64_S1x64_1 b)))

/-- The inner products along the feature axis. -/
def innerProducts (u v : (⟨S1024x100x64, .f32⟩ : BufTy).Contents (Elt F)) : (⟨S1024x100, .f32⟩ : BufTy).Contents (Elt F) :=
  Host.reduceAdd (mulf u v) (constant S_ .f32 0x00000000#32) reducesTo_S1024x100x64_S1024x100_d2 h_S_

/-- The whole reference: two rounds of averaging and a layer, then the scores. -/
def scores (e : (⟨S50000x64, .f32⟩ : BufTy).Contents (Elt F)) (w0 : (⟨S64x64, .f32⟩ : BufTy).Contents (Elt F)) (b0 : (⟨S64, .f32⟩ : BufTy).Contents (Elt F))
    (w1 : (⟨S64x64, .f32⟩ : BufTy).Contents (Elt F)) (b1 : (⟨S64, .f32⟩ : BufTy).Contents (Elt F))
    (src dst : (⟨S1250000, .i32⟩ : BufTy).Contents (Elt F)) (users items : (⟨S1024x100, .i32⟩ : BufTy).Contents (Elt F)) :
    (⟨S1024x100, .f32⟩ : BufTy).Contents (Elt F) :=
  innerProducts
    (rowsAt (layer (meanOfNeighbours (layer (meanOfNeighbours e src dst) w0 b0) src dst) w1 b1) users)
    (rowsAt (layer (meanOfNeighbours (layer (meanOfNeighbours e src dst) w0 b0) src dst) w1 b1) items)

set_option maxRecDepth 8192 in
/-- The run's composed term is that composition of the argument arrays. -/
theorem result_eq (m : (ℓ : Loc nD τ sig) → Buf (Elt F) ℓ) (c : Dev nD) :
    Value.res_main_v65 m c = scores (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := rfl

end Cert.ReferenceIdeal.Stages

end
-- ==== Proof.SameStages.lean ====
/-
  Stage by stage, at the ideal values, the kernel's program computes what the reference computes.

  * The gathers and the scatter-additions are the same operations on both sides.
  * The kernel multiplies the message sums by 1 / max(deg, 1) where the reference divides them by max(deg, 1). On the
    extended reals a quotient by d is the product with the inverse of d as soon as d is not 0, and max(deg, 1) is at least 1
    whatever deg is: so x * (1 / d) = x / d at every entry, with no finiteness needed of the sums.
  * The reference's layer is x times the TRANSPOSED weights plus the bias on every row, then tanh: entry (r, q) of
    the product is the sum over k of x[r, k] * w[q, k], the same sum the kernel's blocks hold, and the reshaped bias row
    at column q is the bias at q.
  * The reference's sum over the last axis from 0 is the plain sum of the products: the kernel's scores.
-/
import proofs.«118432_j87952340287676_1_alg».proof.Proof.RefStages
import proofs.«118432_j87952340287676_1_alg».proof.Proof.KernelStages
import proofs.«118432_j87952340287676_1_alg».proof.Proof.LayerBody
import proofs.«118432_j87952340287676_1_alg».proof.Proof.Score
import proofs.«118432_j87952340287676_1_alg».proof.Proof.Gen.ReferenceIdeal.Read
import Idealize.ShloMosaic.Lib.IdealHost
import Idealize.ShloMosaic.Lib.ValueIdx
import Idealize.ShloMosaic.Lib.Pipeline.Value
import Idealize.ShloMosaic.PureOps.Ideal.Laws

set_option maxRecDepth 16384

noncomputable section

namespace Cert.SameStages

open Idealize.ShloMosaic Idealize.ShloMosaic.TcCoe Idealize.SL.Sem Idealize.ShloMosaic.ValueIdx

open Cert.ReferenceIdeal Cert.ReferenceIdeal.Gen Cert.ReferenceIdeal.Stages

/-! ## The shared host operations -/

theorem messageSum_eq (h : (⟨S50000x64, .f32⟩ : BufTy).Contents (Elt Ideal)) (src dst : (⟨S1250000, .i32⟩ : BufTy).Contents (Elt Ideal)) :
    Cert.KernelIdeal.Stages.messageSum (F := Ideal) h src dst = messageSum (F := Ideal) h src dst := rfl

theorem degreeOrOne_eq (dst : (⟨S1250000, .i32⟩ : BufTy).Contents (Elt Ideal)) :
    Cert.KernelIdeal.Stages.degreeOrOne (F := Ideal) dst = degreeOrOne (F := Ideal) dst := rfl

theorem perNode_eq (v : (⟨S50000, .f32⟩ : BufTy).Contents (Elt Ideal)) :
    Cert.KernelIdeal.Stages.perNode (F := Ideal) v = perNode (F := Ideal) v := rfl

theorem rowsAt_eq (h : (⟨S50000x64, .f32⟩ : BufTy).Contents (Elt Ideal)) (idx : (⟨S1024x100, .i32⟩ : BufTy).Contents (Elt Ideal)) :
    Cert.KernelIdeal.Stages.rowsAt (F := Ideal) h idx = rowsAt (F := Ideal) h idx := rfl

/-! ## The mean of the neighbours: a product with the reciprocal against a quotient -/

/-- The node (row) of an entry. -/
abbrev nodeOf (i : S50000x64.Idx) : S50000.Idx := fun a => match a with
  | ⟨0, _⟩ => ⟨(i 0).val, (i 0).isLt⟩
abbrev nodeCol (i : S50000x64.Idx) : S50000x1.Idx := fun a => match a with
  | ⟨0, _⟩ => ⟨(i 0).val, (i 0).isLt⟩
  | ⟨1, _⟩ => ⟨0, Nat.one_pos⟩

/-- A value per node spread along the features reads, at an entry, the value of the entry's node. -/
theorem perNode_apply (v : (⟨S50000, .f32⟩ : BufTy).Contents (Elt Ideal)) (i : S50000x64.Idx) :
    perNode (F := Ideal) v i = v (nodeOf i) := by
  unfold perNode
  refine (broadcastInDim_apply _ bcast_S50000x1_S50000x64_0_1 _ i (nodeCol i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])).trans ?_
  exact broadcastInDim_apply _ bcast_S50000_S50000x1_0 v (nodeCol i) (nodeOf i) (fun a => match a with
    | ⟨0, _⟩ => by show (i 0).val = if (50000 : Nat) = 1 then 0 else (i 0).val; rw [if_neg (by decide)])

/-- The splat of the f32 word of 1.0 is the extended real one at every node. -/
theorem ones_apply (j : S50000.Idx) :
    broadcastInDim S50000 ![] bcast_S_S50000 (constant (F := Ideal) S_ .f32 0x3F800000#32) j = 1 :=
  (broadcastInDim_apply _ bcast_S_S50000 _ j (fun a => a.elim0) (fun a => a.elim0)).trans Ideal.ofBits_one_f32

/-- A maximum with one is never zero, whatever the other operand is. -/
theorem max_ones_ne_zero (x : FVec Ideal S50000 .f32) (j : S50000.Idx) :
    maximumf (F := Ideal) x (broadcastInDim S50000 ![] bcast_S_S50000 (constant (F := Ideal) S_ .f32 0x3F800000#32)) j ≠ 0 := by
  rw [maximumf_apply, ones_apply]
  exact (lt_max_of_lt_right zero_lt_one).ne'

/-- On the extended reals, off a zero divisor, the product with the reciprocal is the quotient. -/
theorem mul_reciprocal (x d : EReal) (hd : d ≠ 0) : x * Ideal.div 1 d = Ideal.div x d := by
  unfold Ideal.div
  rw [if_neg hd, if_neg hd, one_mul]

/-- Scaling per node by 1 / max(x, 1) is dividing per node by max(x, 1): for ANY sums `s` and counts `x`. -/
theorem scale_eq_divide (s : FVec Ideal S50000x64 .f32) (x : FVec Ideal S50000 .f32) :
    mulf (F := Ideal) s (perNode (F := Ideal) (Host.divf (F := Ideal) (broadcastInDim S50000 ![] bcast_S_S50000 (constant (F := Ideal) S_ .f32 0x3F800000#32))
        (maximumf (F := Ideal) x (broadcastInDim S50000 ![] bcast_S_S50000 (constant (F := Ideal) S_ .f32 0x3F800000#32)))))
      = Host.divf (F := Ideal) s (perNode (F := Ideal) (maximumf (F := Ideal) x (broadcastInDim S50000 ![] bcast_S_S50000 (constant (F := Ideal) S_ .f32 0x3F800000#32)))) := by
  funext i
  show s i * perNode (F := Ideal) _ i = Ideal.div (s i) (perNode (F := Ideal) _ i)
  rw [perNode_apply, perNode_apply]
  show s i * Ideal.div (broadcastInDim S50000 ![] bcast_S_S50000 (constant (F := Ideal) S_ .f32 0x3F800000#32) (nodeOf i)) _ = _
  rw [ones_apply]
  exact mul_reciprocal _ _ (max_ones_ne_zero x _)

/-- The kernel's scaled message sums are the reference's mean of the neighbours. -/
theorem mean_eq (h : (⟨S50000x64, .f32⟩ : BufTy).Contents (Elt Ideal)) (src dst : (⟨S1250000, .i32⟩ : BufTy).Contents (Elt Ideal)) :
    Cert.KernelIdeal.Stages.scaledMessages (F := Ideal) h src dst (Cert.KernelIdeal.Stages.inverseDegree dst)
      = meanOfNeighbours (F := Ideal) h src dst := by
  unfold Cert.KernelIdeal.Stages.scaledMessages Cert.KernelIdeal.Stages.inverseDegree meanOfNeighbours
  rw [messageSum_eq, degreeOrOne_eq, perNode_eq]
  unfold degreeOrOne
  exact scale_eq_divide _ _

/-! ## The layer -/

/-- The reference's product with the transposed weights, at an entry: the row of features against the row of weights. -/
theorem product_apply (x : FVec Ideal S50000x64 .f32) (w : FVec Ideal S64x64 .f32) (i : S50000x64.Idx) :
    Host.dotGeneral (F := Ideal) dot_S50000x64_S64x64_S50000x64_1_0_0_1_n_n none x (transpose S64x64 [1, 0] w transposes_S64x64_S64x64_1_0) i
      = ∑ k : Fin 64, x (Cert.KernelIdeal.Layer.featAt i k) * w (Cert.KernelIdeal.Layer.weightAt i k) := by
  simp only [Host.dotGeneral]
  rw [Ideal.dotGeneral_apply, ← Equiv.sum_comp (contrEquiv1 dot_S50000x64_S64x64_S50000x64_1_0_0_1_n_n 64 rfl rfl).symm]
  refine Finset.sum_congr rfl fun k _ => ?_
  have hk := contrEquiv1_symm_val dot_S50000x64_S64x64_S50000x64_1_0_0_1_n_n 64 rfl rfl k
  have el : dot_S50000x64_S64x64_S50000x64_1_0_0_1_n_n.lhsIdx i ((contrEquiv1 dot_S50000x64_S64x64_S50000x64_1_0_0_1_n_n 64 rfl rfl).symm k) = Cert.KernelIdeal.Layer.featAt i k := funext fun a => Fin.ext (by
    match a with
    | ⟨0, _⟩ => exact Read.lhs_main_v20_0 _ _
    | ⟨1, _⟩ => exact (Read.lhs_main_v20_1 _ _).trans hk)
  have er : dot_S50000x64_S64x64_S50000x64_1_0_0_1_n_n.rhsIdx i ((contrEquiv1 dot_S50000x64_S64x64_S50000x64_1_0_0_1_n_n 64 rfl rfl).symm k) = Read.ridx_main_v20 i k := funext fun a => Fin.ext (by
    match a with
    | ⟨0, _⟩ => exact (Read.rhs_main_v20_0 _ _).trans hk
    | ⟨1, _⟩ => exact Read.rhs_main_v20_1 _ _)
  rw [el, er]
  refine congrArg (x (Cert.KernelIdeal.Layer.featAt i k) * ·) ?_
  exact transpose_apply [1, 0] w transposes_S64x64_S64x64_1_0 (Read.ridx_main_v20 i k) (Cert.KernelIdeal.Layer.weightAt i k) (fun b => match b with
    | ⟨0, _⟩ => rfl
    | ⟨1, _⟩ => rfl)

/-- The bias at the column of an entry. -/
abbrev colOf (i : S50000x64.Idx) : S64.Idx := fun a => match a with
  | ⟨0, _⟩ => ⟨(i 1).val, (i 1).isLt⟩

/-- The reference's bias on every row, at an entry: the bias at the entry's column. -/
theorem bias_apply (b : (⟨S64, .f32⟩ : BufTy).Contents (Elt Ideal)) (i : S50000x64.Idx) :
    broadcastInDim S50000x64 ![0, 1] bcast_S1x64_S50000x64_0_1 (broadcastInDim S1x64 ![1] bcast_S64_S1x64_1 b) i = b (colOf i) := by
  refine (broadcastInDim_apply _ bcast_S1x64_S50000x64_0_1 _ i (Cert.KernelIdeal.Layer.biasAt i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])).trans ?_
  exact broadcastInDim_apply _ bcast_S64_S1x64_1 b (Cert.KernelIdeal.Layer.biasAt i) (colOf i) (fun a => match a with
    | ⟨0, _⟩ => by show (i 1).val = if (64 : Nat) = 1 then 0 else (i 1).val; rw [if_neg (by decide)])

/-- The kernel's bias row at the column of an entry is the bias there. -/
theorem biasRow_apply (b : (⟨S64, .f32⟩ : BufTy).Contents (Elt Ideal)) (i : S50000x64.Idx) :
    Cert.KernelIdeal.Stages.biasRow (F := Ideal) b (Cert.KernelIdeal.Layer.biasAt i) = b (colOf i) := by
  unfold Cert.KernelIdeal.Stages.biasRow
  refine (shapeCast_addUnit_apply ![64] b _ (Cert.KernelIdeal.Layer.biasAt i)).trans ?_
  exact congrArg b (funext fun a => match a with | ⟨0, _⟩ => rfl)

/-- The reference's layer is the kernel's, entry by entry. -/
theorem layer_eq (x : (⟨S50000x64, .f32⟩ : BufTy).Contents (Elt Ideal)) (w : (⟨S64x64, .f32⟩ : BufTy).Contents (Elt Ideal))
    (b : (⟨S64, .f32⟩ : BufTy).Contents (Elt Ideal)) :
    layer (F := Ideal) x w b = Cert.KernelIdeal.Layer.layerAt x w (Cert.KernelIdeal.Stages.biasRow (F := Ideal) b) := by
  funext i
  unfold layer Cert.KernelIdeal.Layer.layerAt
  show Ideal.tanh (Host.dotGeneral (F := Ideal) dot_S50000x64_S64x64_S50000x64_1_0_0_1_n_n none x (transpose S64x64 [1, 0] w transposes_S64x64_S64x64_1_0) i
      + broadcastInDim S50000x64 ![0, 1] bcast_S1x64_S50000x64_0_1 (broadcastInDim S1x64 ![1] bcast_S64_S1x64_1 b) i) = _
  rw [product_apply, bias_apply, biasRow_apply]

/-! ## The scores -/

/-- The reference's sum of the products along the features is the kernel's scores, entry by entry. -/
theorem innerProducts_eq (u v : (⟨S1024x100x64, .f32⟩ : BufTy).Contents (Elt Ideal)) :
    innerProducts (F := Ideal) u v = Cert.KernelIdeal.Score.scoreAt u v := by
  funext i
  unfold innerProducts Cert.KernelIdeal.Score.scoreAt
  simp only [Host.reduceAdd, Ideal.hostReduceAdd_def]
  rw [Ideal.hostReduceAdd_single reducesTo_S1024x100x64_S1024x100_d2 (by decide)]
  show Ideal.ofBits .f32 0x00000000#32 + _ = _
  rw [Ideal.ofBits_zero_f32, zero_add]
  refine Finset.sum_congr rfl fun k _ => ?_
  exact congrArg (mulf (F := Ideal) u v) (funext fun a => Fin.ext (by match a with | ⟨0, _⟩ => rfl | ⟨1, _⟩ => rfl | ⟨2, _⟩ => rfl))

end Cert.SameStages

end
-- ==== Proof.KernelValue.lean ====
/-
  What the idealized kernel program leaves in its result array, as a function of its argument arrays.

  Read back from the last region to the launch: the result array is the scores of the user rows and the item rows of
  the second hidden array; the second hidden array is the layer of the scaled message sums of the first; the first is
  the layer of the scaled message sums of the embeddings. Stage by stage these are the reference's stages
  (Proof/SameStages.lean), so the whole is the reference's composition of the same argument arrays.
-/
import proofs.«118432_j87952340287676_1_alg».proof.Proof.KernelStages
import proofs.«118432_j87952340287676_1_alg».proof.Proof.Layer0
import proofs.«118432_j87952340287676_1_alg».proof.Proof.Layer1
import proofs.«118432_j87952340287676_1_alg».proof.Proof.Score
import proofs.«118432_j87952340287676_1_alg».proof.Proof.SameStages

set_option maxRecDepth 16384

noncomputable section

namespace Cert.KernelIdeal.Result

open Cert.KernelIdeal Cert.KernelIdeal.Gen Cert.KernelIdeal.GenP
open Idealize.ShloMosaic Idealize.ShloMosaic.TcCoe Idealize.SL.Sem

variable (m : (ℓ : Loc nD τ sig) → Buf (Elt Ideal) ℓ) (ρ : Dev nD → PrngReg)

/-- The first region's output array: the reference's first layer of the mean of the embeddings' neighbours. -/
theorem hidden0 (c : Dev nD) :
    (dat0 (V1 m ρ) c).arrAt 3 cfg0.N
      = Cert.ReferenceIdeal.Stages.layer (F := Ideal) (Cert.ReferenceIdeal.Stages.meanOfNeighbours (F := Ideal) (m ((c : Thread nD τ).loc main_arg0)) (m ((c : Thread nD τ).loc main_arg5)) (m ((c : Thread nD τ).loc main_arg6))) (m ((c : Thread nD τ).loc main_arg1)) (m ((c : Thread nD τ).loc main_arg2)) := by
  rw [Layer0.final (V1 m ρ) c, Stages.entry0_features m ρ c, Stages.entry0_weights m ρ c, Stages.entry0_bias m ρ c, Cert.SameStages.mean_eq, ← Cert.SameStages.layer_eq]

/-- The second region's output array: the reference's second layer of the mean of the first hidden array's neighbours. -/
theorem hidden1 (c : Dev nD) :
    (dat1 (V3 m ρ) c).arrAt 3 cfg1.N
      = Cert.ReferenceIdeal.Stages.layer (F := Ideal) (Cert.ReferenceIdeal.Stages.meanOfNeighbours (F := Ideal)
          (Cert.ReferenceIdeal.Stages.layer (F := Ideal) (Cert.ReferenceIdeal.Stages.meanOfNeighbours (F := Ideal) (m ((c : Thread nD τ).loc main_arg0)) (m ((c : Thread nD τ).loc main_arg5)) (m ((c : Thread nD τ).loc main_arg6))) (m ((c : Thread nD τ).loc main_arg1)) (m ((c : Thread nD τ).loc main_arg2)))
          (m ((c : Thread nD τ).loc main_arg5)) (m ((c : Thread nD τ).loc main_arg6))) (m ((c : Thread nD τ).loc main_arg3)) (m ((c : Thread nD τ).loc main_arg4)) := by
  rw [Layer1.final (V3 m ρ) c, Stages.entry1_features m ρ c, Stages.entry1_weights m ρ c, Stages.entry1_bias m ρ c, hidden0 m ρ c, Cert.SameStages.mean_eq, ← Cert.SameStages.layer_eq]

/-- THE RESULT ARRAY after the last region: the reference's scores of the argument arrays. -/
theorem result (c : Dev nD) :
    W6 m ρ c (Proc.devRef .tc main_v52)
      = Cert.ReferenceIdeal.Stages.scores (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [Stages.W6_result m ρ c, Score.final (V5 m ρ) c, Stages.entry2_users m ρ c, Stages.entry2_items m ρ c, hidden1 m ρ c,
    Cert.SameStages.rowsAt_eq, Cert.SameStages.rowsAt_eq, ← Cert.SameStages.innerProducts_eq]
  rfl

end Cert.KernelIdeal.Result

end
-- ==== Proof.lean ====
/-
  The certificate of the two-hop neighbour-averaging network with its user–item scores.

  Both programs compute, twice, "average the features of each node's in-neighbours over the edge list, apply a linear
  layer and tanh", and then the inner products of the gathered user rows with the gathered item rows. The kernel runs
  the two layers and the scores on the TensorCore, in blocks of rows, and leaves the gathers and the scatter-additions
  to the host, as the reference does; it multiplies by the reciprocal of the clamped degree where the reference divides
  by the clamped degree, rounds to bf16 on the way into the matrix product, and contracts the weights along their
  second axis where the reference transposes them first. At the ideal values none of this changes an entry: the
  roundings are the identity, a block of rows of a matrix product is the product of the block, and x * (1 / d) = x / d
  for the never-zero d = max(deg, 1) (Proof/SameStages.lean). The claim needs no finiteness of the inputs.

  The frames of the two kernel programs are the generated frame certificates; the reference's frame is its generated
  run with the result dropped; the idealization rewrote nothing, so what it preserves is trivial.
-/
import proofs.«118432_j87952340287676_1_alg».proof.Defs
import proofs.«118432_j87952340287676_1_alg».proof.Proof.Gen.Kernel
import proofs.«118432_j87952340287676_1_alg».proof.Proof.Gen.KernelIdeal
import proofs.«118432_j87952340287676_1_alg».proof.Proof.Gen.ReferenceIdeal
import proofs.«118432_j87952340287676_1_alg».proof.Proof.Gen.ReferenceIdeal.Run
import proofs.«118432_j87952340287676_1_alg».proof.Proof.Gen.ReferenceIdeal.Read
import proofs.«118432_j87952340287676_1_alg».proof.Proof.Gen.Pre_finite_inputs
import proofs.«118432_j87952340287676_1_alg».proof.Proof.Patched.Kernel.Frame
import proofs.«118432_j87952340287676_1_alg».proof.Proof.Patched.KernelIdeal.Frame
import proofs.«118432_j87952340287676_1_alg».proof.Proof.KernelRun
import proofs.«118432_j87952340287676_1_alg».proof.Proof.KernelValue
import proofs.«118432_j87952340287676_1_alg».proof.Proof.RefStages
import Idealize.ShloMosaic.Adequacy
import Idealize.ShloMosaic.Init

noncomputable section

namespace Cert.Proof

open Idealize.ShloMosaic Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal values, from memories that agree on the arguments, both programs end with the reference's
    composition of the argument arrays in their result arrays. -/
theorem algebraic : Cert.algebraic_KernelIdeal_ReferenceIdeal := by
  intro m ρ m' ρ' _ hagree
  refine ⟨fun c => Cert.ReferenceIdeal.Stages.scores (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.KernelIdeal.Result.result m ρ c), (h c).2⟩)
      (Cert.KernelIdeal.ResultRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Stages.result_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
